-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S64x4 : Shape := ⟨2, ![64, 4]⟩
abbrev S18x4 : Shape := ⟨2, ![18, 4]⟩
abbrev S4x512 : Shape := ⟨2, ![4, 512]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel
  bcast_S_S64x4 : S_.BroadcastsInDim S64x4 (![] : Fin 0 → Fin S64x4.rank)
  reducesTo_S64x4_S_d0_1 : S64x4.ReducesTo [0, 1] S_
  bcast_S_S18x4 : S_.BroadcastsInDim S18x4 (![] : Fin 0 → Fin S18x4.rank)
  reducesTo_S18x4_S_d0_1 : S18x4.ReducesTo [0, 1] S_

variable [Facts]

def fn {F : FTy → Type} [FloatOps F] (main_arg0 : FVec F S4x64x512x512 .f32) (main_arg1 : FVec F S64x4 .f32) (main_arg2 : FVec F S18x4 .f32) (main_arg3 : IVec S4x512 32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_v4 : FVec F S64x4 .f32 := Host.absf main_arg1
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S18x4 .f32 := Host.absf main_arg2
  let main_cst_2 : FVec F S_ .f32 := constant S_ .f32 0x7F800000#32
  let main_v10 : FVec F S18x4 .f32 := broadcastInDim S18x4 ![] bcast_S_S18x4 main_cst_2
  let main_v11 : IVec S18x4 1 := cmpf .olt main_v9 main_v10
  let main_c_3 : IVec S_ 1 := constantI S_ 1 1#1
  let main_v12 : IVec S_ 1 := (fun x v => Host.reduce IntOp.andi x v reducesTo_S18x4_S_d0_1 h_S_) main_v11 main_c_3
  let main_v13 : IVec S_ 1 := andi main_v8 main_v12
  main_v13
-- ==== Kernel.lean ====
abbrev S4x64x512x512 : Shape := ⟨4, ![4, 64, 512, 512]⟩
abbrev S64x4 : Shape := ⟨2, ![64, 4]⟩
abbrev S18x4 : Shape := ⟨2, ![18, 4]⟩
abbrev S4x512 : Shape := ⟨2, ![4, 512]⟩
abbrev S_ : Shape := ⟨0, ![]⟩
abbrev S4x512x1 : Shape := ⟨3, ![4, 512, 1]⟩
abbrev S4x512x4 : Shape := ⟨3, ![4, 512, 4]⟩
abbrev S4x1x512x1 : Shape := ⟨4, ![4, 1, 512, 1]⟩
abbrev S1x64x1x4 : Shape := ⟨4, ![1, 64, 1, 4]⟩
abbrev S4x1x512x4 : Shape := ⟨4, ![4, 1, 512, 4]⟩
abbrev S4x64x512x4 : Shape := ⟨4, ![4, 64, 512, 4]⟩
abbrev S4x64x512x1 : Shape := ⟨4, ![4, 64, 512, 1]⟩
abbrev S4x64x512 : Shape := ⟨3, ![4, 64, 512]⟩
abbrev S4x64x1x512 : Shape := ⟨4, ![4, 64, 1, 512]⟩
abbrev S1x8x512x512 : Shape := ⟨4, ![1, 8, 512, 512]⟩
abbrev S1x8x1x512 : Shape := ⟨4, ![1, 8, 1, 512]⟩

abbrev nBuf : Space → Nat
  | .hbm => 47
  | .vmem => 12
  | .smem => 0
  | _ => 0

abbrev bufTy : (tb : Table) → Fin (tcTables nBuf tb) → BufTy
  | .hbm, ⟨0, _⟩ => ⟨S4x64x512x512, .f32⟩
  | .hbm, ⟨1, _⟩ => ⟨S64x4, .f32⟩
  | .hbm, ⟨2, _⟩ => ⟨S18x4, .f32⟩
  | .hbm, ⟨3, _⟩ => ⟨S4x512, .i32⟩
  | .hbm, ⟨4, _⟩ => ⟨S_, .i32⟩
  | .hbm, ⟨5, _⟩ => ⟨S4x512, .i32⟩
  | .hbm, ⟨6, _⟩ => ⟨S4x512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4x512, .i32⟩
  | .hbm, ⟨11, _⟩ => ⟨S4x512, .i32⟩
  | .hbm, ⟨12, _⟩ => ⟨S_, .i32⟩
  | .hbm, ⟨13, _⟩ => ⟨S4x512, .i32⟩
  | .hbm, ⟨14, _⟩ => ⟨S4x512, .i32⟩
  | .hbm, ⟨15, _⟩ => ⟨S_, .i32⟩
  | .hbm, ⟨16, _⟩ => ⟨S4x512, .i32⟩
  | .hbm, ⟨17, _⟩ => ⟨S4x512, .i1⟩
  | .hbm, ⟨18, _⟩ => ⟨S_, .i32⟩
  | .hbm, ⟨19, _⟩ => ⟨S4x512, .i32⟩
  | .hbm, ⟨20, _⟩ => ⟨S4x512, .i32⟩
  | .hbm, ⟨21, _⟩ => ⟨S4x512, .i32⟩
  | .hbm, ⟨22, _⟩ => ⟨S4x512x1, .i32⟩
  | .hbm, ⟨23, _⟩ => ⟨S4x512x4, .f32⟩
  | .hbm, ⟨24, _⟩ => ⟨S_, .i32⟩
  | .hbm, ⟨25, _⟩ => ⟨S4x512, .i32⟩
  | .hbm, ⟨26, _⟩ => ⟨S4x512, .i1⟩
  | .hbm, ⟨27, _⟩ => ⟨S4x1x512x1, .i1⟩
  | .hbm, ⟨28, _⟩ => ⟨S1x64x1x4, .f32⟩
  | .hbm, ⟨29, _⟩ => ⟨S4x1x512x4, .f32⟩
  | .hbm, ⟨30, _⟩ => ⟨S4x64x512x4, .i1⟩
  | .hbm, ⟨31, _⟩ => ⟨S4x64x512x4, .f32⟩
  | .hbm, ⟨32, _⟩ => ⟨S4x64x512x4, .f32⟩
  | .hbm, ⟨33, _⟩ => ⟨S4x64x512x4, .f32⟩
  | .hbm, ⟨34, _⟩ => ⟨S4x64x512x1, .f32⟩
  | .hbm, ⟨35, _⟩ => ⟨S4x64x512, .f32⟩
  | .hbm, ⟨36, _⟩ => ⟨S4x64x1x512, .f32⟩
  | .hbm, ⟨37, _⟩ => ⟨S4x64x512x1, .f32⟩
  | .hbm, ⟨38, _⟩ => ⟨S4x64x512, .f32⟩
  | .hbm, ⟨39, _⟩ => ⟨S4x64x1x512, .f32⟩
  | .hbm, ⟨40, _⟩ => ⟨S4x64x512x1, .f32⟩
  | .hbm, ⟨41, _⟩ => ⟨S4x64x512, .f32⟩
  | .hbm, ⟨42, _⟩ => ⟨S4x64x1x512, .f32⟩
  | .hbm, ⟨43, _⟩ => ⟨S4x64x512x1, .f32⟩
  | .hbm, ⟨44, _⟩ => ⟨S4x64x512, .f32⟩
  | .hbm, ⟨45, _⟩ => ⟨S4x64x1x512, .f32⟩
  | .hbm, ⟨46, _⟩ => ⟨S4x64x512x512, .f32⟩
  | .local _ .vmem, ⟨0, _⟩ => ⟨S1x8x512x512, .f32⟩
  | .local _ .vmem, ⟨1, _⟩ => ⟨S1x8x512x512, .f32⟩
  | .local _ .vmem, ⟨2, _⟩ => ⟨S1x8x1x512, .f32⟩
  | .local _ .vmem, ⟨3, _⟩ => ⟨S1x8x1x512, .f32⟩
  | .local _ .vmem, ⟨4, _⟩ => ⟨S1x8x1x512, .f32⟩
  | .local _ .vmem, ⟨5, _⟩ => ⟨S1x8x1x512, .f32⟩
  | .local _ .vmem, ⟨6, _⟩ => ⟨S1x8x1x512, .f32⟩
  | .local _ .vmem, ⟨7, _⟩ => ⟨S1x8x1x512, .f32⟩
  | .local _ .vmem, ⟨8, _⟩ => ⟨S1x8x1x512, .f32⟩
  | .local _ .vmem, ⟨9, _⟩ => ⟨S1x8x1x512, .f32⟩
  | .local _ .vmem, ⟨10, _⟩ => ⟨S1x8x512x512, .f32⟩
  | .local _ .vmem, ⟨11, _⟩ => ⟨S1x8x512x512, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_c_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512_S4x1x512x1_0_2 : S4x512.BroadcastsInDim S4x1x512x1 (![0, 2] : Fin 2 → Fin S4x1x512x1.rank)
  bcast_S64x4_S1x64x1x4_1_3 : S64x4.BroadcastsInDim S1x64x1x4 (![1, 3] : Fin 2 → Fin S1x64x1x4.rank)
  bcast_S4x512x4_S4x1x512x4_0_2_3 : S4x512x4.BroadcastsInDim S4x1x512x4 (![0, 2, 3] : Fin 3 → Fin S4x1x512x4.rank)
  bcast_S4x1x512x1_S4x64x512x4_0_1_2_3 : S4x1x512x1.BroadcastsInDim S4x64x512x4 (![0, 1, 2, 3] : Fin 4 → Fin S4x64x512x4.rank)
  bcast_S1x64x1x4_S4x64x512x4_0_1_2_3 : S1x64x1x4.BroadcastsInDim S4x64x512x4 (![0, 1, 2, 3] : Fin 4 → Fin S4x64x512x4.rank)
  bcast_S4x1x512x4_S4x64x512x4_0_1_2_3 : S4x1x512x4.BroadcastsInDim S4x64x512x4 (![0, 1, 2, 3] : Fin 4 → Fin S4x64x512x4.rank)
  slices_S4x64x512x4_S4x64x512x1_0_0_0_0 : S4x64x512x4.Slices ![0, 0, 0, 0] S4x64x512x1
  shapeCasts_S4x64x512x1_S4x64x512 : S4x64x512x1.ShapeCasts S4x64x512
  bcast_S4x64x512_S4x64x1x512_0_1_3 : S4x64x512.BroadcastsInDim S4x64x1x512 (![0, 1, 3] : Fin 3 → Fin S4x64x1x512.rank)
  slices_S4x64x512x4_S4x64x512x1_0_0_0_1 : S4x64x512x4.Slices ![0, 0, 0, 1] S4x64x512x1
  slices_S4x64x512x4_S4x64x512x1_0_0_0_2 : S4x64x512x4.Slices ![0, 0, 0, 2] S4x64x512x1
  slices_S4x64x512x4_S4x64x512x1_0_0_0_3 : S4x64x512x4.Slices ![0, 0, 0, 3] S4x64x512x1
  inb_S1x8x512x512_S1x8x512x512_0_0_0_0 : ∀ a, (![0, 0, 0, 0] : Fin 4 → Nat) a + S1x8x512x512.size a ≤ S1x8x512x512.size a
  h_S1x8x512x512 : 0 < S1x8x512x512.numel
  inb_S1x8x1x512_S1x8x1x512_0_0_0_0 : ∀ a, (![0, 0, 0, 0] : Fin 4 → Nat) a + S1x8x1x512.size a ≤ S1x8x1x512.size a
  h_S1x8x1x512 : 0 < S1x8x1x512.numel
  shapeCasts_S1x8x1x512_S1x8x1x512 : S1x8x1x512.ShapeCasts S1x8x1x512
  broadcasts_S1x8x1x512_S1x8x512x512 : S1x8x1x512.Broadcasts S1x8x512x512
  gather_S18x4_S4x512x1_S4x512x4_2_0_n_n_0_2_14_wf : GatherDims.WF S18x4 S4x512x1 S4x512x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x512.size a ≤ S4x64x512x512.size a
  hwx0_0 : ∀ i : grid0.Coords, EltTy.bits .f32 = 32 ∨ (Rect.block (s := S4x64x512x512) S1x8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1x512.size a ≤ S4x64x1x512.size a
  hwx0_1 : ∀ i : grid0.Coords, EltTy.bits .f32 = 32 ∨ (Rect.block (s := S4x64x1x512) S1x8x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1x512.size a ≤ S4x64x1x512.size a
  hwx0_2 : ∀ i : grid0.Coords, EltTy.bits .f32 = 32 ∨ (Rect.block (s := S4x64x1x512) S1x8x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1x512.size a ≤ S4x64x1x512.size a
  hwx0_3 : ∀ i : grid0.Coords, EltTy.bits .f32 = 32 ∨ (Rect.block (s := S4x64x1x512) S1x8x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1x512.size a ≤ S4x64x1x512.size a
  hwx0_4 : ∀ i : grid0.Coords, EltTy.bits .f32 = 32 ∨ (Rect.block (s := S4x64x1x512) S1x8x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x512x512.size a ≤ S4x64x512x512.size a
  hwx0_5 : ∀ i : grid0.Coords, EltTy.bits .f32 = 32 ∨ (Rect.block (s := S4x64x512x512) S1x8x512x512.size (cc0_transform_5 i) (hinb0_5 i)).WholeWords (EltTy.packing .f32)

variable [Facts₀]

def gather_S18x4_S4x512x1_S4x512x4_2_0_n_n_0_2_14 : GatherDims S18x4 S4x512x1 S4x512x4 where
  offsetDims := [2]
  collapsedSliceDims := [0]
  operandBatchingDims := []
  startIndicesBatchingDims := []
  startIndexMap := [0]
  indexVectorDim := 2
  sliceSizes := ![1, 4]
  wf := gather_S18x4_S4x512x1_S4x512x4_2_0_n_n_0_2_14_wf

abbrev win0_0 : Pipeline.Window sig grid0 :=
  Pipeline.Window.ofSpec (Memref.whole main_arg0) S1x8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x8x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x8x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x8x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x8x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x8x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x64x512x512 : Shape := ⟨4, ![4, 64, 512, 512]⟩
abbrev S64x4 : Shape := ⟨2, ![64, 4]⟩
abbrev S18x4 : Shape := ⟨2, ![18, 4]⟩
abbrev S4x512 : Shape := ⟨2, ![4, 512]⟩
abbrev S_ : Shape := ⟨0, ![]⟩
abbrev S4x512x1 : Shape := ⟨3, ![4, 512, 1]⟩
abbrev S4x512x4 : Shape := ⟨3, ![4, 512, 4]⟩
abbrev S4x1x512x1 : Shape := ⟨4, ![4, 1, 512, 1]⟩
abbrev S1x64x1x4 : Shape := ⟨4, ![1, 64, 1, 4]⟩
abbrev S4x1x512x4 : Shape := ⟨4, ![4, 1, 512, 4]⟩
abbrev S4x64x512x4 : Shape := ⟨4, ![4, 64, 512, 4]⟩
abbrev S4x64x512x1 : Shape := ⟨4, ![4, 64, 512, 1]⟩
abbrev S4x64x512 : Shape := ⟨3, ![4, 64, 512]⟩
abbrev S4x64x1x512 : Shape := ⟨4, ![4, 64, 1, 512]⟩

abbrev nBuf : Space → Nat
  | .hbm => 56
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S64x4, .f32⟩
  | .hbm, ⟨2, _⟩ => ⟨S18x4, .f32⟩
  | .hbm, ⟨3, _⟩ => ⟨S4x512, .i32⟩
  | .hbm, ⟨4, _⟩ => ⟨S_, .i32⟩
  | .hbm, ⟨5, _⟩ => ⟨S4x512, .i32⟩
  | .hbm, ⟨6, _⟩ => ⟨S4x512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4x512, .i32⟩
  | .hbm, ⟨11, _⟩ => ⟨S4x512, .i32⟩
  | .hbm, ⟨12, _⟩ => ⟨S_, .i32⟩
  | .hbm, ⟨13, _⟩ => ⟨S4x512, .i32⟩
  | .hbm, ⟨14, _⟩ => ⟨S4x512, .i32⟩
  | .hbm, ⟨15, _⟩ => ⟨S_, .i32⟩
  | .hbm, ⟨16, _⟩ => ⟨S4x512, .i32⟩
  | .hbm, ⟨17, _⟩ => ⟨S4x512, .i1⟩
  | .hbm, ⟨18, _⟩ => ⟨S_, .i32⟩
  | .hbm, ⟨19, _⟩ => ⟨S4x512, .i32⟩
  | .hbm, ⟨20, _⟩ => ⟨S4x512, .i32⟩
  | .hbm, ⟨21, _⟩ => ⟨S4x512, .i32⟩
  | .hbm, ⟨22, _⟩ => ⟨S4x512x1, .i32⟩
  | .hbm, ⟨23, _⟩ => ⟨S4x512x4, .f32⟩
  | .hbm, ⟨24, _⟩ => ⟨S_, .i32⟩
  | .hbm, ⟨25, _⟩ => ⟨S4x512, .i32⟩
  | .hbm, ⟨26, _⟩ => ⟨S4x512, .i1⟩
  | .hbm, ⟨27, _⟩ => ⟨S4x1x512x1, .i1⟩
  | .hbm, ⟨28, _⟩ => ⟨S1x64x1x4, .f32⟩
  | .hbm, ⟨29, _⟩ => ⟨S4x1x512x4, .f32⟩
  | .hbm, ⟨30, _⟩ => ⟨S4x64x512x4, .i1⟩
  | .hbm, ⟨31, _⟩ => ⟨S4x64x512x4, .f32⟩
  | .hbm, ⟨32, _⟩ => ⟨S4x64x512x4, .f32⟩
  | .hbm, ⟨33, _⟩ => ⟨S4x64x512x4, .f32⟩
  | .hbm, ⟨34, _⟩ => ⟨S4x64x512x1, .f32⟩
  | .hbm, ⟨35, _⟩ => ⟨S4x64x512, .f32⟩
  | .hbm, ⟨36, _⟩ => ⟨S4x64x1x512, .f32⟩
  | .hbm, ⟨37, _⟩ => ⟨S4x64x512x1, .f32⟩
  | .hbm, ⟨38, _⟩ => ⟨S4x64x512, .f32⟩
  | .hbm, ⟨39, _⟩ => ⟨S4x64x1x512, .f32⟩
  | .hbm, ⟨40, _⟩ => ⟨S4x64x512x1, .f32⟩
  | .hbm, ⟨41, _⟩ => ⟨S4x64x512, .f32⟩
  | .hbm, ⟨42, _⟩ => ⟨S4x64x1x512, .f32⟩
  | .hbm, ⟨43, _⟩ => ⟨S4x64x512x1, .f32⟩
  | .hbm, ⟨44, _⟩ => ⟨S4x64x512, .f32⟩
  | .hbm, ⟨45, _⟩ => ⟨S4x64x1x512, .f32⟩
  | .hbm, ⟨46, _⟩ => ⟨S4x64x512x512, .f32⟩
  | .hbm, ⟨47, _⟩ => ⟨S4x64x512x512, .f32⟩
  | .hbm, ⟨48, _⟩ => ⟨S4x64x512x512, .f32⟩
  | .hbm, ⟨49, _⟩ => ⟨S4x64x512x512, .f32⟩
  | .hbm, ⟨50, _⟩ => ⟨S4x64x512x512, .f32⟩
  | .hbm, ⟨51, _⟩ => ⟨S4x64x512x512, .f32⟩
  | .hbm, ⟨52, _⟩ => ⟨S4x64x512x512, .f32⟩
  | .hbm, ⟨53, _⟩ => ⟨S4x64x512x512, .f32⟩
  | .hbm, ⟨54, _⟩ => ⟨S4x64x512x512, .f32⟩
  | .hbm, ⟨55, _⟩ => ⟨S4x64x512x512, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_c_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512_S4x1x512x1_0_2 : S4x512.BroadcastsInDim S4x1x512x1 (![0, 2] : Fin 2 → Fin S4x1x512x1.rank)
  bcast_S64x4_S1x64x1x4_1_3 : S64x4.BroadcastsInDim S1x64x1x4 (![1, 3] : Fin 2 → Fin S1x64x1x4.rank)
  bcast_S4x512x4_S4x1x512x4_0_2_3 : S4x512x4.BroadcastsInDim S4x1x512x4 (![0, 2, 3] : Fin 3 → Fin S4x1x512x4.rank)
  bcast_S4x1x512x1_S4x64x512x4_0_1_2_3 : S4x1x512x1.BroadcastsInDim S4x64x512x4 (![0, 1, 2, 3] : Fin 4 → Fin S4x64x512x4.rank)
  bcast_S1x64x1x4_S4x64x512x4_0_1_2_3 : S1x64x1x4.BroadcastsInDim S4x64x512x4 (![0, 1, 2, 3] : Fin 4 → Fin S4x64x512x4.rank)
  bcast_S4x1x512x4_S4x64x512x4_0_1_2_3 : S4x1x512x4.BroadcastsInDim S4x64x512x4 (![0, 1, 2, 3] : Fin 4 → Fin S4x64x512x4.rank)
  slices_S4x64x512x4_S4x64x512x1_0_0_0_0 : S4x64x512x4.Slices ![0, 0, 0, 0] S4x64x512x1
  shapeCasts_S4x64x512x1_S4x64x512 : S4x64x512x1.ShapeCasts S4x64x512
  bcast_S4x64x512_S4x64x1x512_0_1_3 : S4x64x512.BroadcastsInDim S4x64x1x512 (![0, 1, 3] : Fin 3 → Fin S4x64x1x512.rank)
  slices_S4x64x512x4_S4x64x512x1_0_0_0_1 : S4x64x512x4.Slices ![0, 0, 0, 1] S4x64x512x1
  slices_S4x64x512x4_S4x64x512x1_0_0_0_2 : S4x64x512x4.Slices ![0, 0, 0, 2] S4x64x512x1
  slices_S4x64x512x4_S4x64x512x1_0_0_0_3 : S4x64x512x4.Slices ![0, 0, 0, 3] S4x64x512x1
  bcast_S4x64x1x512_S4x64x512x512_0_1_2_3 : S4x64x1x512.BroadcastsInDim S4x64x512x512 (![0, 1, 2, 3] : Fin 4 → Fin S4x64x512x512.rank)
  gather_S18x4_S4x512x1_S4x512x4_2_0_n_n_0_2_14_wf : GatherDims.WF S18x4 S4x512x1 S4x512x4 [2] [0] [] [0] [] 2 ![1, 4]

variable [Facts₀]

def gather_S18x4_S4x512x1_S4x512x4_2_0_n_n_0_2_14 : GatherDims S18x4 S4x512x1 S4x512x4 where
  offsetDims := [2]
  collapsedSliceDims := [0]
  operandBatchingDims := []
  startIndicesBatchingDims := []
  startIndexMap := [0]
  indexVectorDim := 2
  sliceSizes := ![1, 4]
  wf := gather_S18x4_S4x512x1_S4x512x4_2_0_n_n_0_2_14_wf

class Facts : Prop extends Facts₀ where

variable [Facts]
-- ==== Proof.Affine.lean ====
/-
  The function both programs compute, entry by entry.

  For an array z over [4, 64, 512, 512] and four coefficient arrays e0 … e3 over [4, 64, 1, 512], the result at
  (a, n, b, d) is

      −( e0(a,n,0,d) + e1(a,n,0,d) · tanh( (z(a,n,b,d) − e2(a,n,0,d)) · e3(a,n,0,d) ) )

  on the extended reals: the coefficients do not depend on the third coordinate b, so every entry of z reads them
  at the singleton position 0 of that axis. Subtracting from zero is negation on the extended reals (at the
  infinities too), which is the one law the two spellings of the outer sign need.
-/
import Idealize.ShloMosaic.PureOps.Ideal
import Idealize.ShloMosaic.PureOps.Ideal.Laws

noncomputable section

namespace Cert.TanhAffine

open Idealize.ShloMosaic

/-- The shape of z and of the result. -/
abbrev SZ : Shape := ⟨4, ![4, 64, 512, 512]⟩
/-- The shape of each coefficient array: one row of 512 per (a, n). -/
abbrev SE : Shape := ⟨4, ![4, 64, 1, 512]⟩

/-- The coefficient position an entry (a, n, b, d) reads: (a, n, 0, d). -/
def col (i : SZ.Idx) : SE.Idx := fun k => match k with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩

/-- −(e0 + e1 · tanh((z − e2) · e3)), the coefficients read at `col`. -/
def tanhAffine (z : SZ.Idx → EReal) (e0 e1 e2 e3 : SE.Idx → EReal) : SZ.Idx → EReal :=
  fun i => -(e0 (col i) + e1 (col i) * Ideal.tanh ((z i - e2 (col i)) * e3 (col i)))

/-- Zero minus x is −x on the extended reals, infinities included. -/
theorem zero_sub_ereal (x : EReal) : (0 : EReal) - x = -x := by
  rw [sub_eq_add_neg, zero_add]

/-- The float zero pattern minus x is −x. -/
theorem zeroWord_sub (x : EReal) : Ideal.ofBits .f32 0x00000000#32 - x = -x := by
  rw [Ideal.ofBits_zero_f32, zero_sub_ereal]

end Cert.TanhAffine

end
-- ==== Proof.Coefficients.lean ====
/-
  The four coefficient arrays the kernel is launched on.

  Before the launch the program selects, for every (a, n, d), a row of four parameters — the row n of one table where
  the mask entry (a, d) is zero, otherwise a row of a second table chosen by the mask entry — and lays parameter j out
  as an array over [4, 64, 1, 512]. The comparison program builds the same four arrays by the same operations, so the
  arrays the launch finds are, operation for operation, the stages that program's read-back names: nothing of the
  selection has to be opened.
-/
import proofs.«169747_j41085657153637_1_alg».proof.Proof.Gen.KernelIdeal.Frame
import proofs.«169747_j41085657153637_1_alg».proof.Proof.Gen.ReferenceIdeal.Read
import Idealize.ShloMosaic.Lib.StableHlo.Run

set_option maxRecDepth 16384

noncomputable section

namespace Cert.KernelIdeal.Coef

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 2000000 in
/-- Parameter 0 as the launch finds it. -/
theorem V_e0 (c : Dev nD) :
    V m c main_v18 = Cert.ReferenceIdeal.Read.val_main_v18 (F := F) (m ((c : Thread nD τ).loc main_arg1))
      (m ((c : Thread nD τ).loc main_arg2)) (m ((c : Thread nD τ).loc main_arg3)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  rfl

set_option maxHeartbeats 2000000 in
/-- Parameter 1 as the launch finds it. -/
theorem V_e1 (c : Dev nD) :
    V m c main_v21 = Cert.ReferenceIdeal.Read.val_main_v21 (F := F) (m ((c : Thread nD τ).loc main_arg1))
      (m ((c : Thread nD τ).loc main_arg2)) (m ((c : Thread nD τ).loc main_arg3)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  rfl

set_option maxHeartbeats 2000000 in
/-- Parameter 2 as the launch finds it. -/
theorem V_e2 (c : Dev nD) :
    V m c main_v24 = Cert.ReferenceIdeal.Read.val_main_v24 (F := F) (m ((c : Thread nD τ).loc main_arg1))
      (m ((c : Thread nD τ).loc main_arg2)) (m ((c : Thread nD τ).loc main_arg3)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  rfl

set_option maxHeartbeats 2000000 in
/-- Parameter 3 as the launch finds it. -/
theorem V_e3 (c : Dev nD) :
    V m c main_v27 = Cert.ReferenceIdeal.Read.val_main_v27 (F := F) (m ((c : Thread nD τ).loc main_arg1))
      (m ((c : Thread nD τ).loc main_arg2)) (m ((c : Thread nD τ).loc main_arg3)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  rfl

end Cert.KernelIdeal.Coef

end
-- ==== Proof.KernelValue.lean ====
/-
  The array the kernel leaves, as one function of the arrays it was launched on.

  The grid has 4 × 8 points; point (a, q) works on the block of z made of row a and the eight columns 8q … 8q + 7 of
  the second axis (all of the last two axes), and on the matching eight rows of each coefficient array. Inside a
  block the body computes, entry by entry, zero minus (e0 + e1 · tanh((z − e2) · e3)), each coefficient spread along
  the third axis. So the block a point writes back is the block of the tanh-affine function of the whole arrays at
  that point, and since the 32 blocks tile the result array, the array ends holding that function.
-/
import proofs.«169747_j41085657153637_1_alg».proof.Proof.Gen.KernelIdeal.Value
import proofs.«169747_j41085657153637_1_alg».proof.Proof.Affine
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Cert.TanhAffine

variable (m : (ℓ : Loc nD τ sig) → Buf (Elt Ideal) ℓ) (ρ : Dev nD → PrngReg)

/-- The body loads and stores whole blocks: every access starts at the origin. -/
theorem origin : (![0, 0, 0, 0] : Fin 4 → Nat) = fun _ => 0 := funext fun a => by fin_cases a <;> rfl

/-- One entry of a block. If, at block position j, the five loaded blocks hold the entries of z and of the
    coefficients that array position i reads, then the body's value at j is the tanh-affine function at i:
    zero minus x is −x. -/
theorem entry_eq (P0 P1 : Vec Ideal S1x8x1x512 .f32) (P2 : Vec Ideal S1x8x512x512 .f32) (P3 P4 : Vec Ideal S1x8x1x512 .f32)
    (z : SZ.Idx → EReal) (e0 e1 e2 e3 : SE.Idx → EReal) (j : S1x8x512x512.Idx) (i : SZ.Idx)
    (h2 : P2 (ix5_2 j) = z i) (h0 : P0 (ix5_0 j) = e0 (col i)) (h1 : P1 (ix5_1 j) = e1 (col i))
    (h3 : P3 (ix5_3 j) = e2 (col i)) (h4 : P4 (ix5_4 j) = e3 (col i)) :
    E5 P0 P1 P2 P3 P4 j = tanhAffine z e0 e1 e2 e3 i := by
  show FloatOps.subf (F := Ideal) (Scalar.ofBits .f32 0x00000000#32) (FloatOps.addf (F := Ideal) (P0 (ix5_0 j))
    (FloatOps.mulf (F := Ideal) (P1 (ix5_1 j)) (FloatOps.tanh (F := Ideal) (FloatOps.mulf (F := Ideal)
      (FloatOps.subf (F := Ideal) (P2 (ix5_2 j)) (P3 (ix5_3 j))) (P4 (ix5_4 j)))))) = _
  rw [h0, h1, h2, h3, h4]
  exact zeroWord_sub _

/-- The index maps over the 32 grid points: every input block sits at the output block's row and column group, at
    position 0 of the last two axes, and the output's block indices stay within 4 rows and 8 column groups. -/
theorem index_facts : ∀ t : Fin cfg0.N,
    win0_0.index t (0 : Fin 4) = win0_5.index t (0 : Fin 4)
    ∧ win0_0.index t (1 : Fin 4) = win0_5.index t (1 : Fin 4)
    ∧ win0_0.index t (2 : Fin 4) = 0
    ∧ win0_0.index t (3 : Fin 4) = 0
    ∧ win0_1.index t (0 : Fin 4) = win0_5.index t (0 : Fin 4)
    ∧ win0_1.index t (1 : Fin 4) = win0_5.index t (1 : Fin 4)
    ∧ win0_1.index t (2 : Fin 4) = 0
    ∧ win0_1.index t (3 : Fin 4) = 0
    ∧ win0_2.index t (0 : Fin 4) = win0_5.index t (0 : Fin 4)
    ∧ win0_2.index t (1 : Fin 4) = win0_5.index t (1 : Fin 4)
    ∧ win0_2.index t (2 : Fin 4) = 0
    ∧ win0_2.index t (3 : Fin 4) = 0
    ∧ win0_3.index t (0 : Fin 4) = win0_5.index t (0 : Fin 4)
    ∧ win0_3.index t (1 : Fin 4) = win0_5.index t (1 : Fin 4)
    ∧ win0_3.index t (2 : Fin 4) = 0
    ∧ win0_3.index t (3 : Fin 4) = 0
    ∧ win0_4.index t (0 : Fin 4) = win0_5.index t (0 : Fin 4)
    ∧ win0_4.index t (1 : Fin 4) = win0_5.index t (1 : Fin 4)
    ∧ win0_4.index t (2 : Fin 4) = 0
    ∧ win0_4.index t (3 : Fin 4) = 0
    ∧ win0_5.index t (0 : Fin 4) ≤ 3
    ∧ win0_5.index t (1 : Fin 4) ≤ 7
    ∧ win0_5.index t (2 : Fin 4) = 0
    ∧ win0_5.index t (3 : Fin 4) = 0 :=
  (by decide +kernel : ∀ t : Fin grid0.N, _)

/-- Every (row, column group) is some grid point's block. -/
theorem index_onto : ∀ (q0 : Fin 4) (q1 : Fin 8), ∃ t : Fin cfg0.N, win0_5.index t = ![q0.val, q1.val, 0, 0] :=
  (by decide +kernel : ∀ (q0 : Fin 4) (q1 : Fin 8), ∃ t : Fin grid0.N, win0_5.index t = ![q0.val, q1.val, 0, 0])

/-- The block of z at point t, read at block position j, is z at the array index under j: the input's and the
    output's blocks are the same rectangle. -/
theorem z_block (c : Dev nD) (t : Fin cfg0.N) (j : S1x8x512x512.Idx) :
    iblk m c 0 t (ix5_2 j) = V m c main_arg0 (((cfg0.win 5).blk t).view.emb j) := by
  obtain ⟨k00, k01, k02, k03, k10, k11, k12, k13, k20, k21, k22, k23, k30, k31, k32, k33, k40, k41, k42, k43, o0, o1, o2, o3⟩ := index_facts t
  have hj0 : (j 0).val < 1 := (j 0).isLt
  show V m c main_arg0 (((cfg0.win 0).blk t).view.emb (ix5_2 j)) = V m c main_arg0 (((cfg0.win 5).blk t).view.emb j)
  refine congrArg (V m c main_arg0) ?_
  funext a; apply Fin.ext
  match a with
  | ⟨0, _⟩ => show win0_0.index t (0 : Fin 4) * 1 + 1 * 0 = win0_5.index t (0 : Fin 4) * 1 + 1 * (j 0).val; omega
  | ⟨1, _⟩ => show win0_0.index t (1 : Fin 4) * 8 + 1 * (j 1).val = win0_5.index t (1 : Fin 4) * 8 + 1 * (j 1).val; omega
  | ⟨2, _⟩ => show win0_0.index t (2 : Fin 4) * 512 + 1 * (j 2).val = win0_5.index t (2 : Fin 4) * 512 + 1 * (j 2).val; omega
  | ⟨3, _⟩ => show win0_0.index t (3 : Fin 4) * 512 + 1 * (j 3).val = win0_5.index t (3 : Fin 4) * 512 + 1 * (j 3).val; omega

/-- Coefficient 0's block at point t, read where block position j of the output reads it, is the coefficient array at
    the position the array index under j reads: same row and column, position 0 of the third axis. -/
theorem coef0_block (c : Dev nD) (t : Fin cfg0.N) (j : S1x8x512x512.Idx) :
    iblk m c 1 t (ix5_0 j) = V m c main_v18 (col (((cfg0.win 5).blk t).view.emb j)) := by
  obtain ⟨k00, k01, k02, k03, k10, k11, k12, k13, k20, k21, k22, k23, k30, k31, k32, k33, k40, k41, k42, k43, o0, o1, o2, o3⟩ := index_facts t
  have hj0 : (j 0).val < 1 := (j 0).isLt
  show V m c main_v18 (((cfg0.win 1).blk t).view.emb (ix5_0 j)) = V m c main_v18 (col (((cfg0.win 5).blk t).view.emb j))
  refine congrArg (V m c main_v18) ?_
  funext a; apply Fin.ext
  match a with
  | ⟨0, _⟩ => show win0_1.index t (0 : Fin 4) * 1 + 1 * 0 = win0_5.index t (0 : Fin 4) * 1 + 1 * (j 0).val; omega
  | ⟨1, _⟩ => show win0_1.index t (1 : Fin 4) * 8 + 1 * (j 1).val = win0_5.index t (1 : Fin 4) * 8 + 1 * (j 1).val; omega
  | ⟨2, _⟩ => show win0_1.index t (2 : Fin 4) * 1 + 1 * 0 = 0; omega
  | ⟨3, _⟩ => show win0_1.index t (3 : Fin 4) * 512 + 1 * (j 3).val = win0_5.index t (3 : Fin 4) * 512 + 1 * (j 3).val; omega

/-- Coefficient 1's block at point t, read where block position j of the output reads it, is the coefficient array at
    the position the array index under j reads: same row and column, position 0 of the third axis. -/
theorem coef1_block (c : Dev nD) (t : Fin cfg0.N) (j : S1x8x512x512.Idx) :
    iblk m c 2 t (ix5_1 j) = V m c main_v21 (col (((cfg0.win 5).blk t).view.emb j)) := by
  obtain ⟨k00, k01, k02, k03, k10, k11, k12, k13, k20, k21, k22, k23, k30, k31, k32, k33, k40, k41, k42, k43, o0, o1, o2, o3⟩ := index_facts t
  have hj0 : (j 0).val < 1 := (j 0).isLt
  show V m c main_v21 (((cfg0.win 2).blk t).view.emb (ix5_1 j)) = V m c main_v21 (col (((cfg0.win 5).blk t).view.emb j))
  refine congrArg (V m c main_v21) ?_
  funext a; apply Fin.ext
  match a with
  | ⟨0, _⟩ => show win0_2.index t (0 : Fin 4) * 1 + 1 * 0 = win0_5.index t (0 : Fin 4) * 1 + 1 * (j 0).val; omega
  | ⟨1, _⟩ => show win0_2.index t (1 : Fin 4) * 8 + 1 * (j 1).val = win0_5.index t (1 : Fin 4) * 8 + 1 * (j 1).val; omega
  | ⟨2, _⟩ => show win0_2.index t (2 : Fin 4) * 1 + 1 * 0 = 0; omega
  | ⟨3, _⟩ => show win0_2.index t (3 : Fin 4) * 512 + 1 * (j 3).val = win0_5.index t (3 : Fin 4) * 512 + 1 * (j 3).val; omega

/-- Coefficient 2's block at point t, read where block position j of the output reads it, is the coefficient array at
    the position the array index under j reads: same row and column, position 0 of the third axis. -/
theorem coef2_block (c : Dev nD) (t : Fin cfg0.N) (j : S1x8x512x512.Idx) :
    iblk m c 3 t (ix5_3 j) = V m c main_v24 (col (((cfg0.win 5).blk t).view.emb j)) := by
  obtain ⟨k00, k01, k02, k03, k10, k11, k12, k13, k20, k21, k22, k23, k30, k31, k32, k33, k40, k41, k42, k43, o0, o1, o2, o3⟩ := index_facts t
  have hj0 : (j 0).val < 1 := (j 0).isLt
  show V m c main_v24 (((cfg0.win 3).blk t).view.emb (ix5_3 j)) = V m c main_v24 (col (((cfg0.win 5).blk t).view.emb j))
  refine congrArg (V m c main_v24) ?_
  funext a; apply Fin.ext
  match a with
  | ⟨0, _⟩ => show win0_3.index t (0 : Fin 4) * 1 + 1 * 0 = win0_5.index t (0 : Fin 4) * 1 + 1 * (j 0).val; omega
  | ⟨1, _⟩ => show win0_3.index t (1 : Fin 4) * 8 + 1 * (j 1).val = win0_5.index t (1 : Fin 4) * 8 + 1 * (j 1).val; omega
  | ⟨2, _⟩ => show win0_3.index t (2 : Fin 4) * 1 + 1 * 0 = 0; omega
  | ⟨3, _⟩ => show win0_3.index t (3 : Fin 4) * 512 + 1 * (j 3).val = win0_5.index t (3 : Fin 4) * 512 + 1 * (j 3).val; omega

/-- Coefficient 3's block at point t, read where block position j of the output reads it, is the coefficient array at
    the position the array index under j reads: same row and column, position 0 of the third axis. -/
theorem coef3_block (c : Dev nD) (t : Fin cfg0.N) (j : S1x8x512x512.Idx) :
    iblk m c 4 t (ix5_4 j) = V m c main_v27 (col (((cfg0.win 5).blk t).view.emb j)) := by
  obtain ⟨k00, k01, k02, k03, k10, k11, k12, k13, k20, k21, k22, k23, k30, k31, k32, k33, k40, k41, k42, k43, o0, o1, o2, o3⟩ := index_facts t
  have hj0 : (j 0).val < 1 := (j 0).isLt
  show V m c main_v27 (((cfg0.win 4).blk t).view.emb (ix5_4 j)) = V m c main_v27 (col (((cfg0.win 5).blk t).view.emb j))
  refine congrArg (V m c main_v27) ?_
  funext a; apply Fin.ext
  match a with
  | ⟨0, _⟩ => show win0_4.index t (0 : Fin 4) * 1 + 1 * 0 = win0_5.index t (0 : Fin 4) * 1 + 1 * (j 0).val; omega
  | ⟨1, _⟩ => show win0_4.index t (1 : Fin 4) * 8 + 1 * (j 1).val = win0_5.index t (1 : Fin 4) * 8 + 1 * (j 1).val; omega
  | ⟨2, _⟩ => show win0_4.index t (2 : Fin 4) * 1 + 1 * 0 = 0; omega
  | ⟨3, _⟩ => show win0_4.index t (3 : Fin 4) * 512 + 1 * (j 3).val = win0_5.index t (3 : Fin 4) * 512 + 1 * (j 3).val; omega

/-- What point t writes back is block t of the tanh-affine function of the arrays as the launch finds them. -/
theorem flushed_eq (c : Dev nD) (t : Fin cfg0.N) :
    (dats m 0 c).flushed 5 t = ((cfg0.win 5).blk t).view.read (Elt Ideal)
      (tanhAffine (V m c main_arg0) (V m c main_v18) (V m c main_v21) (V m c main_v24) (V m c main_v27)) := by
  rw [flushed5]
  unfold out0_5
  simp only [View.ld_unit_zero (S := S1x8x512x512) origin, View.ld_unit_zero (S := S1x8x1x512) origin]
  funext j
  refine (canon5_eq (F := Ideal) (iblk m c 1 t) (iblk m c 2 t) (iblk m c 0 t) (iblk m c 3 t) (iblk m c 4 t) j).trans ?_
  exact entry_eq (iblk m c 1 t) (iblk m c 2 t) (iblk m c 0 t) (iblk m c 3 t) (iblk m c 4 t) _ _ _ _ _ j
    (((cfg0.win 5).blk t).view.emb j) (z_block m c t j) (coef0_block m c t j) (coef1_block m c t j)
    (coef2_block m c t j) (coef3_block m c t j)

/-- An index of the result array lies in point t's block iff each coordinate lies in the block's range. -/
theorem mem_blk (t : Fin cfg0.N) (i : S4x64x512x512.Idx) :
    i ∈ ((cfg0.win 5).blk t).view.set ↔ ∀ a : Fin 4, win0_5.index t a * S1x8x512x512.size a ≤ (i a).val
      ∧ (i a).val < win0_5.index t a * S1x8x512x512.size a + S1x8x512x512.size a := by
  show i ∈ ((View.whole main_v28).slice (win0_5.rect t)).set ↔ _
  rw [View.set_slice_whole, Rect.mem_set_unit]
  exact Iff.rfl

/-- The blocks tile the result array: index (a, n, b, d) lies in the block of the point at row a, column group n / 8. -/
theorem covered (i : S4x64x512x512.Idx) :
    ∃ t : Fin cfg0.N, (cfg0.win 5).flush t = true ∧ i ∈ ((cfg0.win 5).blk t).view.set := by
  have hi0 : (i 0).val < 4 := (i 0).isLt
  have hi1 : (i 1).val < 64 := (i 1).isLt
  have hi2 : (i 2).val < 512 := (i 2).isLt
  have hi3 : (i 3).val < 512 := (i 3).isLt
  obtain ⟨t, ht⟩ := index_onto ⟨(i 0).val, hi0⟩ ⟨(i 1).val / 8, by omega⟩
  have q0 : win0_5.index t (0 : Fin 4) = (i 0).val := congrFun ht 0
  have q1 : win0_5.index t (1 : Fin 4) = (i 1).val / 8 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 8 ≤ (i 1).val ∧ (i 1).val < win0_5.index t (1 : Fin 4) * 8 + 8; omega
  | ⟨2, _⟩ => show win0_5.index t (2 : Fin 4) * 512 ≤ (i 2).val ∧ (i 2).val < win0_5.index t (2 : Fin 4) * 512 + 512; omega
  | ⟨3, _⟩ => show win0_5.index t (3 : Fin 4) * 512 ≤ (i 3).val ∧ (i 3).val < win0_5.index t (3 : Fin 4) * 512 + 512; omega

/-- The result array after the run is the tanh-affine function of the arrays as the launch finds them. -/
theorem final (c : Dev nD) :
    (dats m 0 c).arrAt 5 cfg0.N
      = tanhAffine (V m c main_arg0) (V m c main_v18) (V m c main_v21) (V m c main_v24) (V m c main_v27) :=
  (dats m 0 c).arrAt_eq_of_cover 5 _ (fun t _ => flushed_eq m c t) covered

end Cert.KernelIdeal.Blocks

end
-- ==== Proof.ReferenceValue.lean ====
/-
  The comparison program's result is the tanh-affine function of its input z and of its own four coefficient
  arrays.

  Its last ten operations spread each coefficient array along the third axis, and combine them with z entry by
  entry: subtract, multiply, tanh, multiply, add, negate. Read at an index (a, n, b, d), each spread reads its
  array at (a, n, 0, d), and the arithmetic is the specification's, negation spelt as negation.
-/
import proofs.«169747_j41085657153637_1_alg».proof.Proof.Gen.ReferenceIdeal.Read
import proofs.«169747_j41085657153637_1_alg».proof.Proof.Affine

noncomputable section

namespace Cert.ReferenceIdeal.RefValue

open Cert.ReferenceIdeal Cert.ReferenceIdeal.Read Cert.TanhAffine Idealize.ShloMosaic

/-- The last stage, at every index, is −(e0 + e1 · tanh((z − e2) · e3)) of the four coefficient stages. -/
theorem result_eq (z : (⟨S4x64x512x512, .f32⟩ : BufTy).Contents (Elt Ideal)) (x1 : (⟨S64x4, .f32⟩ : BufTy).Contents (Elt Ideal))
    (x2 : (⟨S18x4, .f32⟩ : BufTy).Contents (Elt Ideal)) (x3 : (⟨S4x512, .i32⟩ : BufTy).Contents (Elt Ideal)) :
    val_main_v37 (F := Ideal) z x1 x2 x3
      = tanhAffine z (val_main_v18 (F := Ideal) x1 x2 x3) (val_main_v21 (F := Ideal) x1 x2 x3)
          (val_main_v24 (F := Ideal) x1 x2 x3) (val_main_v27 (F := Ideal) x1 x2 x3) := by
  funext i
  rw [val_main_v37_apply, val_main_v36_apply, val_main_v35_apply, val_main_v34_apply, val_main_v33_apply,
    val_main_v32_apply, val_main_v31_apply, val_main_v29_apply, val_main_v28_apply, val_main_v30_apply]
  rfl

end Cert.ReferenceIdeal.RefValue

end
-- ==== Proof.Algebraic.lean ====
/-
  The two runs side by side.

  The kernel's result array ends at the tanh-affine function of z and of the four coefficient arrays the launch finds;
  those arrays are the comparison program's own coefficient stages of the remaining three inputs; and the comparison
  program's result is the same tanh-affine function of its z and its stages. From memories that agree on the four
  inputs the two results are therefore one array. No finiteness of the inputs is used: the only law between the two
  spellings, 0 − x = −x, holds at the infinities as well.
-/
import proofs.«169747_j41085657153637_1_alg».proof.Defs
import proofs.«169747_j41085657153637_1_alg».proof.Proof.Gen.Pre_finite_inputs
import proofs.«169747_j41085657153637_1_alg».proof.Proof.Gen.Kernel.Frame
import proofs.«169747_j41085657153637_1_alg».proof.Proof.Gen.KernelIdeal.Value
import proofs.«169747_j41085657153637_1_alg».proof.Proof.Gen.ReferenceIdeal.Run
import proofs.«169747_j41085657153637_1_alg».proof.Proof.Gen.ReferenceIdeal.Read
import proofs.«169747_j41085657153637_1_alg».proof.Proof.Affine
import proofs.«169747_j41085657153637_1_alg».proof.Proof.Coefficients
import proofs.«169747_j41085657153637_1_alg».proof.Proof.KernelValue
import proofs.«169747_j41085657153637_1_alg».proof.Proof.ReferenceValue

noncomputable section

open Idealize.ShloMosaic Idealize.ShloMosaic.TcCoe Idealize.SL.Sem

namespace Cert.KernelIdeal.Blocks

open Cert.KernelIdeal Cert.KernelIdeal.Gen Cert.TanhAffine

variable (m : (ℓ : Loc nD τ sig) → Buf (Elt Ideal) ℓ) (ρ : Dev nD → PrngReg)

/-- The kernel's result as a function of the four inputs: the tanh-affine function of z and of the coefficient
    stages of the two parameter tables and the mask. -/
def result (c : Dev nD) : Buf (Elt Ideal) ((c : Thread nD τ).loc main_v28) :=
  tanhAffine (m ((c : Thread nD τ).loc main_arg0))
    (Cert.ReferenceIdeal.Read.val_main_v18 (F := Ideal) (m ((c : Thread nD τ).loc main_arg1)) (m ((c : Thread nD τ).loc main_arg2)) (m ((c : Thread nD τ).loc main_arg3)))
    (Cert.ReferenceIdeal.Read.val_main_v21 (F := Ideal) (m ((c : Thread nD τ).loc main_arg1)) (m ((c : Thread nD τ).loc main_arg2)) (m ((c : Thread nD τ).loc main_arg3)))
    (Cert.ReferenceIdeal.Read.val_main_v24 (F := Ideal) (m ((c : Thread nD τ).loc main_arg1)) (m ((c : Thread nD τ).loc main_arg2)) (m ((c : Thread nD τ).loc main_arg3)))
    (Cert.ReferenceIdeal.Read.val_main_v27 (F := Ideal) (m ((c : Thread nD τ).loc main_arg1)) (m ((c : Thread nD τ).loc main_arg2)) (m ((c : Thread nD τ).loc main_arg3)))

/-- The result array after the run, in terms of the inputs alone. -/
theorem final_inputs (c : Dev nD) : (dats m 0 c).arrAt 5 cfg0.N = result m c := by
  rw [final m c, V_main_arg0, Coef.V_e0, Coef.V_e1, Coef.V_e2, Coef.V_e3]
  rfl

/-- Every weakly fair execution of the kernel program terminates with the result array at `result` and the inputs
    unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_inputs m c), (h c).2⟩)
    (Cert.KernelIdeal.Value.run_blocks m ρ)

end Cert.KernelIdeal.Blocks

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

/-- The comparison program launches no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the two readings of the kernel program. -/
theorem preserves : Cert.preserves_Kernel_KernelIdeal := trivial

/-- From memories agreeing on the inputs, both programs end with −(e0 + e1 · tanh((z − e2) · e3)) in their result
    arrays, the coefficients selected from the same tables by the same mask. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq,
    (hagree c).1, (hagree c).2.1, (hagree c).2.2.1, (hagree c).2.2.2]
  rfl

end Cert.Proof.Claims

end
-- ==== Proof.lean ====
/-
  The proof of `Cert.Claim` for the tanh-affine kernel: −(e0 + e1 · tanh((z − e2) · e3)) over z of shape
  [4, 64, 512, 512], with per-(a, n, d) coefficients selected from two parameter tables by a mask.

  Both programs select the coefficients by the same operations before anything else; the kernel program then applies
  the formula block by block on a 4 × 8 grid, the comparison program applies it to the whole arrays at once. The
  modules:
    Proof/Affine.lean         the formula as one function of z and the four coefficient arrays, entry by entry
    Proof/Coefficients.lean   the coefficient arrays the launch finds are the comparison program's own stages
    Proof/KernelValue.lean    each grid point writes back its block of the formula; the blocks tile the result
    Proof/ReferenceValue.lean the comparison program's last stage is the formula
    Proof/Algebraic.lean      the two runs side by side, and the five claims
  The frames of the two kernel programs and the facts are the generated modules'.
-/
import proofs.«169747_j41085657153637_1_alg».proof.Defs
import proofs.«169747_j41085657153637_1_alg».proof.Proof.Gen.Kernel
import proofs.«169747_j41085657153637_1_alg».proof.Proof.Gen.Kernel.Skeleton
import proofs.«169747_j41085657153637_1_alg».proof.Proof.Gen.Kernel.Launch
import proofs.«169747_j41085657153637_1_alg».proof.Proof.Gen.Kernel.Points
import proofs.«169747_j41085657153637_1_alg».proof.Proof.Gen.Kernel.Frame
import proofs.«169747_j41085657153637_1_alg».proof.Proof.Gen.KernelIdeal
import proofs.«169747_j41085657153637_1_alg».proof.Proof.Gen.KernelIdeal.Skeleton
import proofs.«169747_j41085657153637_1_alg».proof.Proof.Gen.KernelIdeal.Launch
import proofs.«169747_j41085657153637_1_alg».proof.Proof.Gen.KernelIdeal.Points
import proofs.«169747_j41085657153637_1_alg».proof.Proof.Gen.KernelIdeal.Frame
import proofs.«169747_j41085657153637_1_alg».proof.Proof.Gen.ReferenceIdeal
import proofs.«169747_j41085657153637_1_alg».proof.Proof.Gen.Pre_finite_inputs
import proofs.«169747_j41085657153637_1_alg».proof.Proof.Gen.KernelIdeal.Value
import proofs.«169747_j41085657153637_1_alg».proof.Proof.Gen.ReferenceIdeal.Run
import proofs.«169747_j41085657153637_1_alg».proof.Proof.Gen.ReferenceIdeal.Read
import proofs.«169747_j41085657153637_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
